-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x80x80x84 : Shape := ⟨5, ![16, 3, 80, 80, 84]⟩
abbrev S64x5 : Shape := ⟨2, ![64, 5]⟩
abbrev S_ : Shape := ⟨0, ![]⟩

class Facts : Prop where
  bcast_S_S16x3x80x80x84 : S_.BroadcastsInDim S16x3x80x80x84 (![] : Fin 0 → Fin S16x3x80x80x84.rank)
  reducesTo_S16x3x80x80x84_S_d0_1_2_3_4 : S16x3x80x80x84.ReducesTo [0, 1, 2, 3, 4] S_
  h_S_ : 0 < S_.numel
  bcast_S_S64x5 : S_.BroadcastsInDim S64x5 (![] : Fin 0 → Fin S64x5.rank)
  reducesTo_S64x5_S_d0_1 : S64x5.ReducesTo [0, 1] S_

variable [Facts]

def fn {F : FTy → Type} [FloatOps F] (main_arg0 : FVec F S16x3x80x80x84 .f32) (main_arg1 : FVec F S64x5 .f32) : IVec S_ 1 :=
  let main_v0 : FVec F S16x3x80x80x84 .f32 := Host.absf main_arg0
  let main_cst : FVec F S_ .f32 := constant S_ .f32 0x7F800000#32
  let main_v1 : FVec F S16x3x80x80x84 .f32 := broadcastInDim S16x3x80x80x84 ![] bcast_S_S16x3x80x80x84 main_cst
  let main_v2 : IVec S16x3x80x80x84 1 := cmpf .olt main_v0 main_v1
  let main_c : IVec S_ 1 := constantI S_ 1 1#1
  let main_v3 : IVec S_ 1 := (fun x v => Host.reduce IntOp.andi x v reducesTo_S16x3x80x80x84_S_d0_1_2_3_4 h_S_) main_v2 main_c
  let main_v4 : FVec F S64x5 .f32 := Host.absf main_arg1
  let main_cst_0 : FVec F S_ .f32 := constant S_ .f32 0x7F800000#32
  let main_v5 : FVec F S64x5 .f32 := broadcastInDim S64x5 ![] bcast_S_S64x5 main_cst_0
  let main_v6 : IVec S64x5 1 := cmpf .olt main_v4 main_v5
  let main_c_1 : IVec S_ 1 := constantI S_ 1 1#1
  let main_v7 : IVec S_ 1 := (fun x v => Host.reduce IntOp.andi x v reducesTo_S64x5_S_d0_1 h_S_) main_v6 main_c_1
  let main_v8 : IVec S_ 1 := andi main_v3 main_v7
  main_v8
-- ==== Kernel.lean ====
abbrev S16x3x80x80x84 : Shape := ⟨5, ![16, 3, 80, 80, 84]⟩
abbrev S64x5 : Shape := ⟨2, ![64, 5]⟩
abbrev S64x1 : Shape := ⟨2, ![64, 1]⟩
abbrev S64 : Shape := ⟨1, ![64]⟩
abbrev S_ : Shape := ⟨0, ![]⟩
abbrev S16x3x6400x84 : Shape := ⟨4, ![16, 3, 6400, 84]⟩
abbrev S16x3x64x84 : Shape := ⟨4, ![16, 3, 64, 84]⟩
abbrev S64x4 : Shape := ⟨2, ![64, 4]⟩
abbrev S16x3x64x4 : Shape := ⟨4, ![16, 3, 64, 4]⟩
abbrev S1x1x64x4 : Shape := ⟨4, ![1, 1, 64, 4]⟩
abbrev S1x80 : Shape := ⟨2, ![1, 80]⟩
abbrev S64x80 : Shape := ⟨2, ![64, 80]⟩
abbrev S16x3x64x80 : Shape := ⟨4, ![16, 3, 64, 80]⟩
abbrev S1x1x64x80 : Shape := ⟨4, ![1, 1, 64, 80]⟩
abbrev S16x3x64x1 : Shape := ⟨4, ![16, 3, 64, 1]⟩
abbrev S16x3x64 : Shape := ⟨3, ![16, 3, 64]⟩
abbrev S6400 : Shape := ⟨1, ![6400]⟩
abbrev S80x80 : Shape := ⟨2, ![80, 80]⟩
abbrev S48x80x80x84 : Shape := ⟨4, ![48, 80, 80, 84]⟩
abbrev S1x1 : Shape := ⟨2, ![1, 1]⟩
abbrev S6x80x80x84 : Shape := ⟨4, ![6, 80, 80, 84]⟩
abbrev S6x80x80x1 : Shape := ⟨4, ![6, 80, 80, 1]⟩
abbrev S6x80x80 : Shape := ⟨3, ![6, 80, 80]⟩
abbrev S1x80x80 : Shape := ⟨3, ![1, 80, 80]⟩
abbrev S1x6x80x80 : Shape := ⟨4, ![1, 6, 80, 80]⟩
abbrev S1 : Shape := ⟨1, ![1]⟩
abbrev S1x1x1x1 : Shape := ⟨4, ![1, 1, 1, 1]⟩

abbrev nBuf : Space → Nat
  | .hbm => 140
  | .vmem => 4
  | .smem => 0
  | _ => 0

abbrev hbmTy0_0 (i : Nat) : BufTy := match i % 128 with
  | 0 => ⟨S16x3x80x80x84, .f32⟩
  | 1 => ⟨S64x5, .f32⟩
  | 2 => ⟨S64x1, .f32⟩
  | 3 => ⟨S64, .f32⟩
  | 4 => ⟨S_, .f32⟩
  | 5 => ⟨S64, .f32⟩
  | 6 => ⟨S64, .f32⟩
  | 7 => ⟨S64, .f32⟩
  | 8 => ⟨S_, .i32⟩
  | 9 => ⟨S_, .i32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .i32⟩
  | 17 => ⟨S64x1, .f32⟩
  | 18 => ⟨S64, .f32⟩
  | 19 => ⟨S_, .f32⟩
  | 20 => ⟨S64, .f32⟩
  | 21 => ⟨S64, .f32⟩
  | 22 => ⟨S64, .f32⟩
  | 23 => ⟨S_, .i32⟩
  | 24 => ⟨S_, .i32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64, .i32⟩
  | 32 => ⟨S_, .i32⟩
  | 33 => ⟨S64, .i32⟩
  | 34 => ⟨S64, .i32⟩
  | 35 => ⟨S64, .i32⟩
  | 36 => ⟨S16x3x6400x84, .f32⟩
  | 37 => ⟨S_, .i32⟩
  | 38 => ⟨S64, .i32⟩
  | 39 => ⟨S64, .i1⟩
  | 40 => ⟨S_, .i32⟩
  | 41 => ⟨S64, .i32⟩
  | 42 => ⟨S64, .i32⟩
  | 43 => ⟨S64, .i32⟩
  | 44 => ⟨S64x1, .i32⟩
  | 45 => ⟨S16x3x64x84, .f32⟩
  | 46 => ⟨S64x4, .f32⟩
  | 47 => ⟨S16x3x64x4, .f32⟩
  | 48 => ⟨S1x1x64x4, .f32⟩
  | 49 => ⟨S16x3x64x4, .f32⟩
  | 50 => ⟨S16x3x64x4, .f32⟩
  | 51 => ⟨S16x3x64x4, .f32⟩
  | 52 => ⟨S_, .f32⟩
  | 53 => ⟨S_, .f32⟩
  | 54 => ⟨S_, .f32⟩
  | 55 => ⟨S_, .f32⟩
  | 56 => ⟨S64x1, .f32⟩
  | 57 => ⟨S64, .f32⟩
  | 58 => ⟨S64, .i32⟩
  | 59 => ⟨S64x1, .i32⟩
  | 60 => ⟨S1x80, .i32⟩
  | 61 => ⟨S64x80, .i32⟩
  | 62 => ⟨S64x80, .i32⟩
  | 63 => ⟨S64x80, .i1⟩
  | 64 => ⟨S64x80, .f32⟩
  | 65 => ⟨S16x3x64x80, .f32⟩
  | 66 => ⟨S_, .f32⟩
  | 67 => ⟨S16x3x64x80, .f32⟩
  | 68 => ⟨S16x3x64x80, .f32⟩
  | 69 => ⟨S16x3x64x80, .f32⟩
  | 70 => ⟨S16x3x64x80, .f32⟩
  | 71 => ⟨S16x3x64x80, .i1⟩
  | 72 => ⟨S16x3x64x80, .f32⟩
  | 73 => ⟨S16x3x64x80, .f32⟩
  | 74 => ⟨S16x3x64x80, .f32⟩
  | 75 => ⟨S16x3x64x80, .f32⟩
  | 76 => ⟨S16x3x64x80, .f32⟩
  | 77 => ⟨S16x3x64x80, .f32⟩
  | 78 => ⟨S16x3x64x80, .f32⟩
  | 79 => ⟨S16x3x64x80, .f32⟩
  | 80 => ⟨S1x1x64x80, .f32⟩
  | 81 => ⟨S16x3x64x80, .f32⟩
  | 82 => ⟨S16x3x64x80, .f32⟩
  | 83 => ⟨S16x3x64x80, .f32⟩
  | 84 => ⟨S_, .f32⟩
  | 85 => ⟨S_, .f32⟩
  | 86 => ⟨S_, .f32⟩
  | 87 => ⟨S_, .f32⟩
  | 88 => ⟨S16x3x64x1, .f32⟩
  | 89 => ⟨S16x3x64, .f32⟩
  | 90 => ⟨S16x3x64, .f32⟩
  | 91 => ⟨S_, .f32⟩
  | 92 => ⟨S16x3x64, .f32⟩
  | 93 => ⟨S16x3x64, .f32⟩
  | 94 => ⟨S16x3x64, .f32⟩
  | 95 => ⟨S16x3x64, .f32⟩
  | 96 => ⟨S16x3x64, .i1⟩
  | 97 => ⟨S16x3x64, .f32⟩
  | 98 => ⟨S16x3x64, .f32⟩
  | 99 => ⟨S16x3x64, .f32⟩
  | 100 => ⟨S16x3x64, .f32⟩
  | 101 => ⟨S16x3x64, .f32⟩
  | 102 => ⟨S16x3x64, .f32⟩
  | 103 => ⟨S16x3x64, .f32⟩
  | 104 => ⟨S16x3x64, .f32⟩
  | 105 => ⟨S_, .f32⟩
  | 106 => ⟨S_, .f32⟩
  | 107 => ⟨S_, .f32⟩
  | 108 => ⟨S_, .f32⟩
  | 109 => ⟨S_, .f32⟩
  | 110 => ⟨S6400, .f32⟩
  | 111 => ⟨S_, .i32⟩
  | 112 => ⟨S64, .i32⟩
  | 113 => ⟨S64, .i1⟩
  | 114 => ⟨S_, .i32⟩
  | 115 => ⟨S64, .i32⟩
  | 116 => ⟨S64, .i32⟩
  | 117 => ⟨S64, .i32⟩
  | 118 => ⟨S64x1, .i32⟩
  | 119 => ⟨S_, .f32⟩
  | 120 => ⟨S64, .f32⟩
  | 121 => ⟨S6400, .f32⟩
  | 122 => ⟨S80x80, .f32⟩
  | 123 => ⟨S_, .f32⟩
  | 124 => ⟨S_, .f32⟩
  | 125 => ⟨S_, .f32⟩
  | 126 => ⟨S_, .f32⟩
  | 127 => ⟨S_, .f32⟩
  | _ => ⟨S16x3x80x80x84, .f32⟩

abbrev hbmTy0_1 (i : Nat) : BufTy := match i % 128 with
  | 0 => ⟨S_, .f32⟩
  | 1 => ⟨S48x80x80x84, .f32⟩
  | 2 => ⟨S1x1, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S16x3x80x80x84, .f32⟩

abbrev hbmTy (i : Nat) : BufTy := match i / 128 with
  | 0 => hbmTy0_0 i
  | 1 => hbmTy0_1 i
  | _ => ⟨S16x3x80x80x84, .f32⟩

abbrev bufTy : (tb : Table) → Fin (tcTables nBuf tb) → BufTy
  | .hbm, ⟨i, _⟩ => hbmTy i
  | .local _ .vmem, ⟨0, _⟩ => ⟨S6x80x80x84, .f32⟩
  | .local _ .vmem, ⟨1, _⟩ => ⟨S6x80x80x84, .f32⟩
  | .local _ .vmem, ⟨2, _⟩ => ⟨S80x80, .f32⟩
  | .local _ .vmem, ⟨3, _⟩ => ⟨S1x1, .f32⟩
  | _, _ => ⟨S16x3x80x80x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v36 : Ref sig .tc := ⟨.hbm, 64, rfl⟩
abbrev main_v37 : Ref sig .tc := ⟨.hbm, 65, rfl⟩
abbrev main_call3_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_9 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_v48 : Ref sig .tc := ⟨.hbm, 104, rfl⟩
abbrev main_cst_11 : Ref sig .tc := ⟨.hbm, 105, rfl⟩
abbrev main_v49 : Ref sig .tc := ⟨.hbm, 106, rfl⟩
abbrev main_cst_12 : Ref sig .tc := ⟨.hbm, 107, rfl⟩
abbrev main_v50 : Ref sig .tc := ⟨.hbm, 108, rfl⟩
abbrev main_cst_13 : Ref sig .tc := ⟨.hbm, 109, rfl⟩
abbrev main_v51 : Ref sig .tc := ⟨.hbm, 110, rfl⟩
abbrev main_c_14 : Ref sig .tc := ⟨.hbm, 111, rfl⟩
abbrev main_v52 : Ref sig .tc := ⟨.hbm, 112, rfl⟩
abbrev main_v53 : Ref sig .tc := ⟨.hbm, 113, rfl⟩
abbrev main_c_15 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_cst_16 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_cst_17 : Ref sig .tc := ⟨.hbm, 123, rfl⟩
abbrev main_v61 : Ref sig .tc := ⟨.hbm, 124, rfl⟩
abbrev main_cst_18 : Ref sig .tc := ⟨.hbm, 125, rfl⟩
abbrev main_v62 : Ref sig .tc := ⟨.hbm, 126, rfl⟩
abbrev main_cst_19 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_20 : Ref sig .tc := ⟨.hbm, 134, rfl⟩
abbrev main_v69 : Ref sig .tc := ⟨.hbm, 135, rfl⟩
abbrev main_v70 : Ref sig .tc := ⟨.hbm, 136, rfl⟩
abbrev main_cst_21 : Ref sig .tc := ⟨.hbm, 137, rfl⟩
abbrev main_v71 : Ref sig .tc := ⟨.hbm, 138, rfl⟩
abbrev main_v72 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x80x80x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S64x5_S64x1_0_1 : S64x5.Slices ![0, 1] S64x1
  shapeCasts_S64x1_S64 : S64x1.ShapeCasts S64
  bcast_S_S64 : S_.BroadcastsInDim S64 (![] : Fin 0 → Fin S64.rank)
  slices_S64x5_S64x1_0_2 : S64x5.Slices ![0, 2] S64x1
  shapeCasts_S16x3x80x80x84_S16x3x6400x84 : S16x3x80x80x84.ShapeCasts S16x3x6400x84
  bcast_S64_S64x1_0 : S64.BroadcastsInDim S64x1 (![0] : Fin 1 → Fin S64x1.rank)
  slices_S64x5_S64x4_0_1 : S64x5.Slices ![0, 1] S64x4
  slices_S16x3x64x84_S16x3x64x4_0_0_0_0 : S16x3x64x84.Slices ![0, 0, 0, 0] S16x3x64x4
  bcast_S64x4_S1x1x64x4_2_3 : S64x4.BroadcastsInDim S1x1x64x4 (![2, 3] : Fin 2 → Fin S1x1x64x4.rank)
  bcast_S1x1x64x4_S16x3x64x4_0_1_2_3 : S1x1x64x4.BroadcastsInDim S16x3x64x4 (![0, 1, 2, 3] : Fin 4 → Fin S16x3x64x4.rank)
  reducesTo_S16x3x64x4_S_d0_1_2_3 : S16x3x64x4.ReducesTo [0, 1, 2, 3] S_
  h_S_ : 0 < S_.numel
  slices_S64x5_S64x1_0_0 : S64x5.Slices ![0, 0] S64x1
  bcast_S64x1_S64x80_0_1 : S64x1.BroadcastsInDim S64x80 (![0, 1] : Fin 2 → Fin S64x80.rank)
  bcast_S1x80_S64x80_0_1 : S1x80.BroadcastsInDim S64x80 (![0, 1] : Fin 2 → Fin S64x80.rank)
  slices_S16x3x64x84_S16x3x64x80_0_0_0_4 : S16x3x64x84.Slices ![0, 0, 0, 4] S16x3x64x80
  bcast_S_S16x3x64x80 : S_.BroadcastsInDim S16x3x64x80 (![] : Fin 0 → Fin S16x3x64x80.rank)
  bcast_S64x80_S1x1x64x80_2_3 : S64x80.BroadcastsInDim S1x1x64x80 (![2, 3] : Fin 2 → Fin S1x1x64x80.rank)
  bcast_S1x1x64x80_S16x3x64x80_0_1_2_3 : S1x1x64x80.BroadcastsInDim S16x3x64x80 (![0, 1, 2, 3] : Fin 4 → Fin S16x3x64x80.rank)
  reducesTo_S16x3x64x80_S_d0_1_2_3 : S16x3x64x80.ReducesTo [0, 1, 2, 3] S_
  slices_S16x3x64x84_S16x3x64x1_0_0_0_4 : S16x3x64x84.Slices ![0, 0, 0, 4] S16x3x64x1
  shapeCasts_S16x3x64x1_S16x3x64 : S16x3x64x1.ShapeCasts S16x3x64
  bcast_S_S16x3x64 : S_.BroadcastsInDim S16x3x64 (![] : Fin 0 → Fin S16x3x64.rank)
  reducesTo_S16x3x64_S_d0_1_2 : S16x3x64.ReducesTo [0, 1, 2] S_
  bcast_S_S6400 : S_.BroadcastsInDim S6400 (![] : Fin 0 → Fin S6400.rank)
  shapeCasts_S6400_S80x80 : S6400.ShapeCasts S80x80
  reducesTo_S80x80_S_d0_1 : S80x80.ReducesTo [0, 1] S_
  shapeCasts_S16x3x80x80x84_S48x80x80x84 : S16x3x80x80x84.ShapeCasts S48x80x80x84
  inb_S1x1_S1x1_0_0 : ∀ a, (![0, 0] : Fin 2 → Nat) a + S1x1.size a ≤ S1x1.size a
  h_S1x1 : 0 < S1x1.numel
  inb_S6x80x80x84_S6x80x80x84_0_0_0_0 : ∀ a, (![0, 0, 0, 0] : Fin 4 → Nat) a + S6x80x80x84.size a ≤ S6x80x80x84.size a
  h_S6x80x80x84 : 0 < S6x80x80x84.numel
  shapeCasts_S6x80x80x84_S6x80x80x84 : S6x80x80x84.ShapeCasts S6x80x80x84
  slices_S6x80x80x84_o0_0_0_4_S6x80x80x1 : S6x80x80x84.Slices ![0, 0, 0, 4] S6x80x80x1
  shapeCasts_S6x80x80x1_S6x80x80 : S6x80x80x1.ShapeCasts S6x80x80
  inb_S80x80_S80x80_0_0 : ∀ a, (![0, 0] : Fin 2 → Nat) a + S80x80.size a ≤ S80x80.size a
  h_S80x80 : 0 < S80x80.numel
  shapeCasts_S80x80_S80x80 : S80x80.ShapeCasts S80x80
  shapeCasts_S80x80_S1x80x80 : S80x80.ShapeCasts S1x80x80
  broadcasts_S1x80x80_S6x80x80 : S1x80x80.Broadcasts S6x80x80
  shapeCasts_S1x1_S1x1 : S1x1.ShapeCasts S1x1
  shapeCasts_S6x80x80_S1x6x80x80 : S6x80x80.ShapeCasts S1x6x80x80
  reduces_S1x6x80x80_S1 : S1x6x80x80.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  gather_S16x3x6400x84_S64x1_S16x3x64x84_013_2_n_n_2_1_163184_wf : GatherDims.WF S16x3x6400x84 S64x1 S16x3x64x84 [0, 1, 3] [2] [] [2] [] 1 ![16, 3, 1, 84]
  scatter_S6400_S64x1_S64_n_0_0_1_wf : ScatterDims.WF S6400 S64x1 S64 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x80x80x84.size a ≤ S48x80x80x84.size a
  hwx0_0 : ∀ i : grid0.Coords, EltTy.bits .f32 = 32 ∨ (Rect.block (s := S48x80x80x84) S6x80x80x84.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x80.size a ≤ S80x80.size a
  hwx0_1 : ∀ i : grid0.Coords, EltTy.bits .f32 = 32 ∨ (Rect.block (s := S80x80) S80x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S16x3x6400x84_S64x1_S16x3x64x84_013_2_n_n_2_1_163184 : GatherDims S16x3x6400x84 S64x1 S16x3x64x84 where
  offsetDims := [0, 1, 3]
  collapsedSliceDims := [2]
  operandBatchingDims := []
  startIndicesBatchingDims := []
  startIndexMap := [2]
  indexVectorDim := 1
  sliceSizes := ![16, 3, 1, 84]
  wf := gather_S16x3x6400x84_S64x1_S16x3x64x84_013_2_n_n_2_1_163184_wf
def scatter_S6400_S64x1_S64_n_0_0_1 : ScatterDims S6400 S64x1 S64 where
  updateWindowDims := []
  insertedWindowDims := [0]
  scatterDimsToOperandDims := [0]
  indexVectorDim := 1
  wf := scatter_S6400_S64x1_S64_n_0_0_1_wf

abbrev win0_0 : Pipeline.Window sig grid0 :=
  Pipeline.Window.ofSpec (Memref.whole main_v64) S6x80x80x84.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S80x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x80x80x84 : Shape := ⟨5, ![16, 3, 80, 80, 84]⟩
abbrev S64x5 : Shape := ⟨2, ![64, 5]⟩
abbrev S64x1 : Shape := ⟨2, ![64, 1]⟩
abbrev S64 : Shape := ⟨1, ![64]⟩
abbrev S_ : Shape := ⟨0, ![]⟩
abbrev S16x3x6400x84 : Shape := ⟨4, ![16, 3, 6400, 84]⟩
abbrev S16x3x64x84 : Shape := ⟨4, ![16, 3, 64, 84]⟩
abbrev S64x4 : Shape := ⟨2, ![64, 4]⟩
abbrev S16x3x64x4 : Shape := ⟨4, ![16, 3, 64, 4]⟩
abbrev S1x1x64x4 : Shape := ⟨4, ![1, 1, 64, 4]⟩
abbrev S1x80 : Shape := ⟨2, ![1, 80]⟩
abbrev S64x80 : Shape := ⟨2, ![64, 80]⟩
abbrev S16x3x64x80 : Shape := ⟨4, ![16, 3, 64, 80]⟩
abbrev S1x1x64x80 : Shape := ⟨4, ![1, 1, 64, 80]⟩
abbrev S16x3x64x1 : Shape := ⟨4, ![16, 3, 64, 1]⟩
abbrev S16x3x64 : Shape := ⟨3, ![16, 3, 64]⟩
abbrev S16x3x6400x1 : Shape := ⟨4, ![16, 3, 6400, 1]⟩
abbrev S16x3x6400 : Shape := ⟨3, ![16, 3, 6400]⟩
abbrev S6400 : Shape := ⟨1, ![6400]⟩
abbrev S1x1x6400 : Shape := ⟨3, ![1, 1, 6400]⟩

abbrev nBuf : Space → Nat
  | .hbm => 160
  | .vmem => 0
  | .smem => 0
  | _ => 0

abbrev hbmTy0_0 (i : Nat) : BufTy := match i % 128 with
  | 0 => ⟨S16x3x80x80x84, .f32⟩
  | 1 => ⟨S64x5, .f32⟩
  | 2 => ⟨S64x1, .f32⟩
  | 3 => ⟨S64, .f32⟩
  | 4 => ⟨S_, .f32⟩
  | 5 => ⟨S64, .f32⟩
  | 6 => ⟨S64, .f32⟩
  | 7 => ⟨S64, .f32⟩
  | 8 => ⟨S_, .i32⟩
  | 9 => ⟨S_, .i32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .i32⟩
  | 17 => ⟨S64x1, .f32⟩
  | 18 => ⟨S64, .f32⟩
  | 19 => ⟨S_, .f32⟩
  | 20 => ⟨S64, .f32⟩
  | 21 => ⟨S64, .f32⟩
  | 22 => ⟨S64, .f32⟩
  | 23 => ⟨S_, .i32⟩
  | 24 => ⟨S_, .i32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64, .i32⟩
  | 32 => ⟨S_, .i32⟩
  | 33 => ⟨S64, .i32⟩
  | 34 => ⟨S64, .i32⟩
  | 35 => ⟨S64, .i32⟩
  | 36 => ⟨S16x3x6400x84, .f32⟩
  | 37 => ⟨S_, .i32⟩
  | 38 => ⟨S64, .i32⟩
  | 39 => ⟨S64, .i1⟩
  | 40 => ⟨S_, .i32⟩
  | 41 => ⟨S64, .i32⟩
  | 42 => ⟨S64, .i32⟩
  | 43 => ⟨S64, .i32⟩
  | 44 => ⟨S64x1, .i32⟩
  | 45 => ⟨S16x3x64x84, .f32⟩
  | 46 => ⟨S64x4, .f32⟩
  | 47 => ⟨S16x3x64x4, .f32⟩
  | 48 => ⟨S1x1x64x4, .f32⟩
  | 49 => ⟨S16x3x64x4, .f32⟩
  | 50 => ⟨S16x3x64x4, .f32⟩
  | 51 => ⟨S16x3x64x4, .f32⟩
  | 52 => ⟨S_, .f32⟩
  | 53 => ⟨S_, .f32⟩
  | 54 => ⟨S_, .f32⟩
  | 55 => ⟨S_, .f32⟩
  | 56 => ⟨S64x1, .f32⟩
  | 57 => ⟨S64, .f32⟩
  | 58 => ⟨S64, .i32⟩
  | 59 => ⟨S64x1, .i32⟩
  | 60 => ⟨S1x80, .i32⟩
  | 61 => ⟨S64x80, .i32⟩
  | 62 => ⟨S64x80, .i32⟩
  | 63 => ⟨S64x80, .i1⟩
  | 64 => ⟨S64x80, .f32⟩
  | 65 => ⟨S16x3x64x80, .f32⟩
  | 66 => ⟨S_, .f32⟩
  | 67 => ⟨S16x3x64x80, .f32⟩
  | 68 => ⟨S16x3x64x80, .f32⟩
  | 69 => ⟨S16x3x64x80, .f32⟩
  | 70 => ⟨S16x3x64x80, .f32⟩
  | 71 => ⟨S16x3x64x80, .i1⟩
  | 72 => ⟨S16x3x64x80, .f32⟩
  | 73 => ⟨S16x3x64x80, .f32⟩
  | 74 => ⟨S16x3x64x80, .f32⟩
  | 75 => ⟨S16x3x64x80, .f32⟩
  | 76 => ⟨S16x3x64x80, .f32⟩
  | 77 => ⟨S16x3x64x80, .f32⟩
  | 78 => ⟨S16x3x64x80, .f32⟩
  | 79 => ⟨S16x3x64x80, .f32⟩
  | 80 => ⟨S1x1x64x80, .f32⟩
  | 81 => ⟨S16x3x64x80, .f32⟩
  | 82 => ⟨S16x3x64x80, .f32⟩
  | 83 => ⟨S16x3x64x80, .f32⟩
  | 84 => ⟨S_, .f32⟩
  | 85 => ⟨S_, .f32⟩
  | 86 => ⟨S_, .f32⟩
  | 87 => ⟨S_, .f32⟩
  | 88 => ⟨S16x3x64x1, .f32⟩
  | 89 => ⟨S16x3x64, .f32⟩
  | 90 => ⟨S16x3x64, .f32⟩
  | 91 => ⟨S_, .f32⟩
  | 92 => ⟨S16x3x64, .f32⟩
  | 93 => ⟨S16x3x64, .f32⟩
  | 94 => ⟨S16x3x64, .f32⟩
  | 95 => ⟨S16x3x64, .f32⟩
  | 96 => ⟨S16x3x64, .i1⟩
  | 97 => ⟨S16x3x64, .f32⟩
  | 98 => ⟨S16x3x64, .f32⟩
  | 99 => ⟨S16x3x64, .f32⟩
  | 100 => ⟨S16x3x64, .f32⟩
  | 101 => ⟨S16x3x64, .f32⟩
  | 102 => ⟨S16x3x64, .f32⟩
  | 103 => ⟨S16x3x64, .f32⟩
  | 104 => ⟨S16x3x64, .f32⟩
  | 105 => ⟨S_, .f32⟩
  | 106 => ⟨S_, .f32⟩
  | 107 => ⟨S_, .f32⟩
  | 108 => ⟨S_, .f32⟩
  | 109 => ⟨S16x3x6400x1, .f32⟩
  | 110 => ⟨S16x3x6400, .f32⟩
  | 111 => ⟨S_, .f32⟩
  | 112 => ⟨S16x3x6400, .f32⟩
  | 113 => ⟨S16x3x6400, .f32⟩
  | 114 => ⟨S16x3x6400, .f32⟩
  | 115 => ⟨S16x3x6400, .f32⟩
  | 116 => ⟨S16x3x6400, .i1⟩
  | 117 => ⟨S16x3x6400, .f32⟩
  | 118 => ⟨S16x3x6400, .f32⟩
  | 119 => ⟨S16x3x6400, .f32⟩
  | 120 => ⟨S16x3x6400, .f32⟩
  | 121 => ⟨S16x3x6400, .f32⟩
  | 122 => ⟨S16x3x6400, .f32⟩
  | 123 => ⟨S16x3x6400, .f32⟩
  | 124 => ⟨S16x3x6400, .f32⟩
  | 125 => ⟨S_, .f32⟩
  | 126 => ⟨S6400, .f32⟩
  | 127 => ⟨S_, .i32⟩
  | _ => ⟨S16x3x80x80x84, .f32⟩

abbrev hbmTy0_1 (i : Nat) : BufTy := match i % 128 with
  | 0 => ⟨S64, .i32⟩
  | 1 => ⟨S64, .i1⟩
  | 2 => ⟨S_, .i32⟩
  | 3 => ⟨S64, .i32⟩
  | 4 => ⟨S64, .i32⟩
  | 5 => ⟨S64, .i32⟩
  | 6 => ⟨S64x1, .i32⟩
  | 7 => ⟨S_, .f32⟩
  | 8 => ⟨S64, .f32⟩
  | 9 => ⟨S6400, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S6400, .f32⟩
  | 18 => ⟨S6400, .f32⟩
  | 19 => ⟨S1x1x6400, .f32⟩
  | 20 => ⟨S16x3x6400, .f32⟩
  | 21 => ⟨S16x3x6400, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S16x3x80x80x84, .f32⟩

abbrev hbmTy (i : Nat) : BufTy := match i / 128 with
  | 0 => hbmTy0_0 i
  | 1 => hbmTy0_1 i
  | _ => ⟨S16x3x80x80x84, .f32⟩

abbrev bufTy : (tb : Table) → Fin (tcTables nBuf tb) → BufTy
  | .hbm, ⟨i, _⟩ => hbmTy i
  | _, _ => ⟨S16x3x80x80x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v36 : Ref sig .tc := ⟨.hbm, 64, rfl⟩
abbrev main_v37 : Ref sig .tc := ⟨.hbm, 65, rfl⟩
abbrev main_call3_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_9 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_v48 : Ref sig .tc := ⟨.hbm, 104, rfl⟩
abbrev main_cst_11 : Ref sig .tc := ⟨.hbm, 105, rfl⟩
abbrev main_v49 : Ref sig .tc := ⟨.hbm, 106, rfl⟩
abbrev main_cst_12 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_call5_cst : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_v53 : Ref sig .tc := ⟨.hbm, 124, rfl⟩
abbrev main_cst_13 : Ref sig .tc := ⟨.hbm, 125, rfl⟩
abbrev main_v54 : Ref sig .tc := ⟨.hbm, 126, rfl⟩
abbrev main_c_14 : Ref sig .tc := ⟨.hbm, 127, rfl⟩
abbrev main_v55 : Ref sig .tc := ⟨.hbm, 128, rfl⟩
abbrev main_v56 : Ref sig .tc := ⟨.hbm, 129, rfl⟩
abbrev main_c_15 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_cst_16 : Ref sig .tc := ⟨.hbm, 135, rfl⟩
abbrev main_v61 : Ref sig .tc := ⟨.hbm, 136, rfl⟩
abbrev main_v62 : Ref sig .tc := ⟨.hbm, 137, rfl⟩
abbrev main_cst_17 : Ref sig .tc := ⟨.hbm, 138, rfl⟩
abbrev main_v63 : Ref sig .tc := ⟨.hbm, 139, rfl⟩
abbrev main_cst_18 : Ref sig .tc := ⟨.hbm, 140, rfl⟩
abbrev main_v64 : Ref sig .tc := ⟨.hbm, 141, rfl⟩
abbrev main_cst_19 : Ref sig .tc := ⟨.hbm, 142, rfl⟩
abbrev main_v65 : Ref sig .tc := ⟨.hbm, 143, rfl⟩
abbrev main_cst_20 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_cst_21 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_cst_22 : Ref sig .tc := ⟨.hbm, 154, rfl⟩
abbrev main_v74 : Ref sig .tc := ⟨.hbm, 155, rfl⟩
abbrev main_v75 : Ref sig .tc := ⟨.hbm, 156, rfl⟩
abbrev main_cst_23 : Ref sig .tc := ⟨.hbm, 157, rfl⟩
abbrev main_v76 : Ref sig .tc := ⟨.hbm, 158, rfl⟩
abbrev main_v77 : Ref sig .tc := ⟨.hbm, 159, rfl⟩

abbrev nD : Nat := 1
abbrev τ : Topo := Topo.v7x

variable {F : FTy → Type} [FloatOps F]

class Facts₀ : Prop where
  slices_S64x5_S64x1_0_1 : S64x5.Slices ![0, 1] S64x1
  shapeCasts_S64x1_S64 : S64x1.ShapeCasts S64
  bcast_S_S64 : S_.BroadcastsInDim S64 (![] : Fin 0 → Fin S64.rank)
  slices_S64x5_S64x1_0_2 : S64x5.Slices ![0, 2] S64x1
  shapeCasts_S16x3x80x80x84_S16x3x6400x84 : S16x3x80x80x84.ShapeCasts S16x3x6400x84
  bcast_S64_S64x1_0 : S64.BroadcastsInDim S64x1 (![0] : Fin 1 → Fin S64x1.rank)
  slices_S64x5_S64x4_0_1 : S64x5.Slices ![0, 1] S64x4
  slices_S16x3x64x84_S16x3x64x4_0_0_0_0 : S16x3x64x84.Slices ![0, 0, 0, 0] S16x3x64x4
  bcast_S64x4_S1x1x64x4_2_3 : S64x4.BroadcastsInDim S1x1x64x4 (![2, 3] : Fin 2 → Fin S1x1x64x4.rank)
  bcast_S1x1x64x4_S16x3x64x4_0_1_2_3 : S1x1x64x4.BroadcastsInDim S16x3x64x4 (![0, 1, 2, 3] : Fin 4 → Fin S16x3x64x4.rank)
  reducesTo_S16x3x64x4_S_d0_1_2_3 : S16x3x64x4.ReducesTo [0, 1, 2, 3] S_
  h_S_ : 0 < S_.numel
  slices_S64x5_S64x1_0_0 : S64x5.Slices ![0, 0] S64x1
  bcast_S64x1_S64x80_0_1 : S64x1.BroadcastsInDim S64x80 (![0, 1] : Fin 2 → Fin S64x80.rank)
  bcast_S1x80_S64x80_0_1 : S1x80.BroadcastsInDim S64x80 (![0, 1] : Fin 2 → Fin S64x80.rank)
  slices_S16x3x64x84_S16x3x64x80_0_0_0_4 : S16x3x64x84.Slices ![0, 0, 0, 4] S16x3x64x80
  bcast_S_S16x3x64x80 : S_.BroadcastsInDim S16x3x64x80 (![] : Fin 0 → Fin S16x3x64x80.rank)
  bcast_S64x80_S1x1x64x80_2_3 : S64x80.BroadcastsInDim S1x1x64x80 (![2, 3] : Fin 2 → Fin S1x1x64x80.rank)
  bcast_S1x1x64x80_S16x3x64x80_0_1_2_3 : S1x1x64x80.BroadcastsInDim S16x3x64x80 (![0, 1, 2, 3] : Fin 4 → Fin S16x3x64x80.rank)
  reducesTo_S16x3x64x80_S_d0_1_2_3 : S16x3x64x80.ReducesTo [0, 1, 2, 3] S_
  slices_S16x3x64x84_S16x3x64x1_0_0_0_4 : S16x3x64x84.Slices ![0, 0, 0, 4] S16x3x64x1
  shapeCasts_S16x3x64x1_S16x3x64 : S16x3x64x1.ShapeCasts S16x3x64
  bcast_S_S16x3x64 : S_.BroadcastsInDim S16x3x64 (![] : Fin 0 → Fin S16x3x64.rank)
  reducesTo_S16x3x64_S_d0_1_2 : S16x3x64.ReducesTo [0, 1, 2] S_
  slices_S16x3x6400x84_S16x3x6400x1_0_0_0_4 : S16x3x6400x84.Slices ![0, 0, 0, 4] S16x3x6400x1
  shapeCasts_S16x3x6400x1_S16x3x6400 : S16x3x6400x1.ShapeCasts S16x3x6400
  bcast_S_S16x3x6400 : S_.BroadcastsInDim S16x3x6400 (![] : Fin 0 → Fin S16x3x6400.rank)
  bcast_S_S6400 : S_.BroadcastsInDim S6400 (![] : Fin 0 → Fin S6400.rank)
  reducesTo_S6400_S_d0 : S6400.ReducesTo [0] S_
  bcast_S6400_S1x1x6400_2 : S6400.BroadcastsInDim S1x1x6400 (![2] : Fin 1 → Fin S1x1x6400.rank)
  bcast_S1x1x6400_S16x3x6400_0_1_2 : S1x1x6400.BroadcastsInDim S16x3x6400 (![0, 1, 2] : Fin 3 → Fin S16x3x6400.rank)
  reducesTo_S16x3x6400_S_d0_1_2 : S16x3x6400.ReducesTo [0, 1, 2] S_
  gather_S16x3x6400x84_S64x1_S16x3x64x84_013_2_n_n_2_1_163184_wf : GatherDims.WF S16x3x6400x84 S64x1 S16x3x64x84 [0, 1, 3] [2] [] [2] [] 1 ![16, 3, 1, 84]
  scatter_S6400_S64x1_S64_n_0_0_1_wf : ScatterDims.WF S6400 S64x1 S64 [] [0] [0] 1

variable [Facts₀]

def gather_S16x3x6400x84_S64x1_S16x3x64x84_013_2_n_n_2_1_163184 : GatherDims S16x3x6400x84 S64x1 S16x3x64x84 where
  offsetDims := [0, 1, 3]
  collapsedSliceDims := [2]
  operandBatchingDims := []
  startIndicesBatchingDims := []
  startIndexMap := [2]
  indexVectorDim := 1
  sliceSizes := ![16, 3, 1, 84]
  wf := gather_S16x3x6400x84_S64x1_S16x3x64x84_013_2_n_n_2_1_163184_wf
def scatter_S6400_S64x1_S64_n_0_0_1 : ScatterDims S6400 S64x1 S64 where
  updateWindowDims := []
  insertedWindowDims := [0]
  scatterDimsToOperandDims := [0]
  indexVectorDim := 1
  wf := scatter_S6400_S64x1_S64_n_0_0_1_wf

class Facts : Prop extends Facts₀ where

variable [Facts]
-- ==== Proof.LibSumIndex.lean ====
/-
  Finite sums over the index types of arrays, re-indexed (any additive commutative monoid):
  a sum over a reshaped array is the sum over the array; a sum over a rank-3 shape is the iterated sum over its three
  coordinates; a sum over `G * R` consecutive positions is the sum over `G` blocks of the sums over their `R` places.
-/
import Idealize.ShloMosaic.Lib.ValueIdx
import Idealize.ShloMosaic.Lib.Pipeline.Value

namespace Idealize.ShloMosaic.SumIndex

open Idealize.ShloMosaic Idealize.ShloMosaic.ValueIdx

variable {M : Type} [AddCommMonoid M]

/-- A reshape only re-indexes: summing every entry of the reshaped array sums every entry of the array. -/
theorem sum_shapeCast {s t : Shape} (x : s.Idx → M) (h : s.ShapeCasts t) :
    ∑ j : t.Idx, shapeCast t x h j = ∑ k : s.Idx, x k := by
  unfold shapeCast
  exact (Shape.reshapeEquiv h).sum_comp x

/-- The indices of a rank-3 shape are the triples of coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over a rank-3 shape, coordinate by coordinate. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← idxEquiv3.symm.sum_comp f, Fintype.sum_prod_type]
  refine Finset.sum_congr rfl fun a _ => ?_
  rw [Fintype.sum_prod_type]
  rfl

/-- Position `r` of block `g` among `G` blocks of `R` consecutive positions. -/
abbrev blockPos {N : Nat} (G R : Nat) (hN : N = G * R) (g : Fin G) (r : Fin R) : Fin N :=
  ⟨g.val * R + r.val, by
    subst hN
    have hg := g.isLt
    have hr := r.isLt
    calc g.val * R + r.val < g.val * R + R := by omega
      _ = (g.val + 1) * R := by ring
      _ ≤ G * R := Nat.mul_le_mul_right R hg⟩

/-- A sum over `G * R` consecutive positions, block by block. -/
theorem sum_blocks {N : Nat} (G R : Nat) (hN : N = G * R) (f : Fin N → M) :
    ∑ i, f i = ∑ g : Fin G, ∑ r : Fin R, f (blockPos G R hN g r) := by
  subst hN
  rw [← finProdFinEquiv.sum_comp f, Fintype.sum_prod_type]
  refine Finset.sum_congr rfl fun g _ => Finset.sum_congr rfl fun r _ => congrArg f (Fin.ext ?_)
  show r.val + R * g.val = g.val * R + r.val
  rw [Nat.mul_comm, Nat.add_comm]

end Idealize.ShloMosaic.SumIndex
-- ==== Proof.NoObjSpec.lean ====
/-
  The no-object term of the loss, as mathematics. Every cell (slab n of the 48 = 16·3, row h, column w of the 80 × 80
  grid) contributes softplus of channel 4 of its prediction, times one minus the cell's mask entry; the term is the sum
  of these contributions over all cells. Softplus is spelled max(x, 0) + log(1 + e^(-|x - 0|)) behind a guard x ≠ x that
  never fires on the extended reals. One side of the comparison takes the sum slab-major in 8 blocks of 6 slabs, the
  other in 16 · 3 slabs of 6400 flattened cells: both are re-groupings of one finite sum in a commutative monoid.
-/
import Idealize.ShloMosaic.PureOps.Ideal
import Idealize.ShloMosaic.PureOps.Ideal.Laws
import Idealize.ShloMosaic.Lib.ValueIdx
import Idealize.ShloMosaic.Lib.Pipeline.Value
import proofs.«166187_j23252952940853_1_alg».proof.Proof.LibSumIndex

noncomputable section

namespace Cert.NoObj

open Idealize.ShloMosaic Idealize.ShloMosaic.ValueIdx Idealize.ShloMosaic.SumIndex

/-- The value of the f32 word of +0.0, and of 1.0. -/
abbrev zero32 : Ideal .f32 := Ideal.ofBits .f32 0x00000000#32
abbrev one32 : Ideal .f32 := Ideal.ofBits .f32 0x3F800000#32

/-- Softplus of one entry, in the host's spelling. -/
def softplus (x : Ideal .f32) : Ideal .f32 :=
  Scalar.select (FloatOps.cmpf .une (FloatOps.subf x zero32) (FloatOps.subf x zero32)) (FloatOps.addf x zero32)
    (FloatOps.addf (FloatOps.maximumf x zero32)
      (FloatOps.hostUnary .log1p (FloatOps.hostUnary .exp (FloatOps.hostNegf (FloatOps.hostAbsf (FloatOps.subf x zero32))))))

/-- The vector unit's spelling — the guard as "ordered and different", the negation as 0 - |d| — is the same function:
    on the extended reals both guards read d ≠ d, and 0 - y = -y. -/
theorem softplus_vector (x : Ideal .f32) :
    Scalar.select (FloatOps.cmpf .one (FloatOps.subf x zero32) (FloatOps.subf x zero32)) (FloatOps.addf x zero32)
      (FloatOps.addf (FloatOps.maximumf x zero32)
        (FloatOps.log1p (FloatOps.exp (FloatOps.subf zero32 (FloatOps.absf (FloatOps.subf x zero32))))))
      = softplus x := by
  unfold softplus
  have hz : ∀ y : Ideal .f32, FloatOps.subf zero32 y = FloatOps.hostNegf y := fun y => by
    show Ideal.ofBits .f32 0x00000000#32 - y = -y
    rw [Ideal.ofBits_zero_f32, sub_eq_add_neg, zero_add]
  rw [hz]
  rfl

/-- The vector unit's softplus of a whole array, read at an index, is softplus of the entry there. -/
theorem softplus_block {s : Shape} (v : s.Idx → Ideal .f32) (k : s.Idx) :
    select (cmpf .one (subf v (broadcast s zero32)) (subf v (broadcast s zero32))) (addf v (broadcast s zero32))
      (addf (maximumf v (broadcast s zero32))
        (log1p (exp (subf (broadcast s zero32) (absf (subf v (broadcast s zero32))))))) k
      = softplus (v k) :=
  softplus_vector (v k)

/-! ## Channel 4 of a block, and the mask spread over the slabs, read at an index -/

/-- Channel 4 of a [6,80,80,84] block, sliced out and the unit axis dropped, at (a, h, w) is the block at (a, h, w, 4). -/
theorem channel4_apply {α : Type} (x : (⟨4, ![6, 80, 80, 84]⟩ : Shape).Idx → α)
    (hs : (⟨4, ![6, 80, 80, 84]⟩ : Shape).Slices ![0, 0, 0, 4] ⟨4, ![6, 80, 80, 1]⟩)
    (hc : (⟨4, ![6, 80, 80, 1]⟩ : Shape).ShapeCasts ⟨3, ![6, 80, 80]⟩) (a : Fin 6) (h w : Fin 80) :
    shapeCast ⟨3, ![6, 80, 80]⟩ (extractStridedSlice ⟨4, ![6, 80, 80, 1]⟩ ![0, 0, 0, 4] x hs) hc (ix3 a h w)
      = x (ix4 a h w ⟨4, by decide⟩) := by
  refine (shapeCast_apply _ hc (ix3 a h w) (ix4 a h w ⟨0, by decide⟩) ?_).trans ?_
  · rw [Shape.rowMajor_val_four, Shape.rowMajor_val_three]
    show ((a.val * 80 + h.val) * 80 + w.val) * 1 + 0 = (a.val * 80 + h.val) * 80 + w.val
    omega
  · exact extractStridedSlice_apply _ x hs _ _ (fun d => match d with
      | ⟨0, _⟩ => by show a.val = 0 + a.val; omega
      | ⟨1, _⟩ => by show h.val = 0 + h.val; omega
      | ⟨2, _⟩ => by show w.val = 0 + w.val; omega
      | ⟨3, _⟩ => by show 4 = 4 + 0; omega)

/-- An [80,80] array given a leading unit axis and spread over 6 slabs, at (a, h, w), is the array at (h, w). -/
theorem spread_apply {α : Type} (y : (⟨2, ![80, 80]⟩ : Shape).Idx → α)
    (hc : (⟨2, ![80, 80]⟩ : Shape).ShapeCasts ⟨3, ![1, 80, 80]⟩)
    (hb : (⟨3, ![1, 80, 80]⟩ : Shape).Broadcasts ⟨3, ![6, 80, 80]⟩) (a : Fin 6) (h w : Fin 80) :
    broadcastTo ⟨3, ![6, 80, 80]⟩ (shapeCast ⟨3, ![1, 80, 80]⟩ y hc) hb (ix3 a h w) = y (ix2 h w) := by
  refine (broadcastTo_apply _ hb (ix3 a h w) (ix3 ⟨0, by decide⟩ h w) (fun d => match d with
      | ⟨0, _⟩ => by show 0 = if (1 : Nat) = 1 then 0 else _; rw [if_pos rfl]
      | ⟨1, _⟩ => by show h.val = if (80 : Nat) = 1 then 0 else h.val; rw [if_neg (by decide)]
      | ⟨2, _⟩ => by show w.val = if (80 : Nat) = 1 then 0 else w.val; rw [if_neg (by decide)])).trans ?_
  refine shapeCast_apply _ hc _ (ix2 h w) ?_
  rw [Shape.rowMajor_val_two, Shape.rowMajor_val_three]
  show h.val * 80 + w.val = (0 * 80 + h.val) * 80 + w.val
  omega

/-- The one entry of a [1] array viewed as [1,1,1,1] and extracted at the origin. -/
theorem extract_unit {α : Type} (v : (⟨1, ![1]⟩ : Shape).Idx → α)
    (hc : (⟨1, ![1]⟩ : Shape).ShapeCasts ⟨4, ![1, 1, 1, 1]⟩)
    (hp : ∀ a, (![0, 0, 0, 0] : Fin 4 → Nat) a < (⟨4, ![1, 1, 1, 1]⟩ : Shape).size a) :
    extractAt ![0, 0, 0, 0] (shapeCast ⟨4, ![1, 1, 1, 1]⟩ v hc) hp = v (ix1 ⟨0, by decide⟩) := by
  unfold extractAt
  refine shapeCast_apply _ hc _ _ ?_
  rw [Shape.rowMajor_val_one, Shape.rowMajor_val_four]
  rfl

/-! ## The term, cell by cell, and its two groupings -/

/-- The contribution of cell (n, h, w): softplus of channel 4 of the prediction there, times one minus the mask at
    the flattened cell 80 h + w; slab n is (n / 3, n % 3) of the [16, 3] leading axes. -/
def cell (x0 : (⟨5, ![16, 3, 80, 80, 84]⟩ : Shape).Idx → Ideal .f32) (mask : (⟨1, ![6400]⟩ : Shape).Idx → Ideal .f32)
    (n : Fin 48) (h w : Fin 80) : Ideal .f32 :=
  softplus (x0 (ix5 ⟨n.val / 3, by have := n.isLt; omega⟩ ⟨n.val % 3, by omega⟩ h w ⟨4, by decide⟩))
    * (one32 - mask (ix1 ⟨h.val * 80 + w.val, by have := h.isLt; have := w.isLt; omega⟩))

/-- The whole sum. -/
def total (x0 : (⟨5, ![16, 3, 80, 80, 84]⟩ : Shape).Idx → Ideal .f32) (mask : (⟨1, ![6400]⟩ : Shape).Idx → Ideal .f32) : Ideal .f32 :=
  ∑ n : Fin 48, ∑ h : Fin 80, ∑ w : Fin 80, cell x0 mask n h w

/-- Slab-major in 8 blocks of 6 slabs. -/
theorem total_eq_blocks (x0 : (⟨5, ![16, 3, 80, 80, 84]⟩ : Shape).Idx → Ideal .f32) (mask : (⟨1, ![6400]⟩ : Shape).Idx → Ideal .f32) :
    total x0 mask = ∑ t : Fin 8, ∑ a : Fin 6, ∑ h : Fin 80, ∑ w : Fin 80, cell x0 mask (blockPos 8 6 rfl t a) h w := by
  unfold total
  exact sum_blocks 8 6 rfl _

/-- As 16 · 3 slabs of 6400 flattened cells. -/
theorem total_eq_flat (x0 : (⟨5, ![16, 3, 80, 80, 84]⟩ : Shape).Idx → Ideal .f32) (mask : (⟨1, ![6400]⟩ : Shape).Idx → Ideal .f32)
    (g : Fin 16 → Fin 3 → Fin 6400 → Ideal .f32)
    (hg : ∀ (b : Fin 16) (a : Fin 3) (h w : Fin 80), g b a (blockPos 80 80 rfl h w) = cell x0 mask (blockPos 16 3 rfl b a) h w) :
    total x0 mask = ∑ b : Fin 16, ∑ a : Fin 3, ∑ p : Fin 6400, g b a p := by
  unfold total
  rw [sum_blocks 16 3 rfl]
  refine Finset.sum_congr rfl fun b _ => Finset.sum_congr rfl fun a _ => ?_
  rw [sum_blocks 80 80 rfl (g b a)]
  exact Finset.sum_congr rfl fun h _ => Finset.sum_congr rfl fun w _ => (hg b a h w).symm

/-- A running sum started at the zero word: after the first n + 1 blocks it is the zero word plus their sum. -/
theorem running_sum (s : Nat → Ideal .f32) (r : Nat → Ideal .f32) (h0 : r 0 = zero32 + s 0)
    (hs : ∀ n, r (n + 1) = r n + s (n + 1)) (n : Nat) : r n = zero32 + ∑ t ∈ Finset.range (n + 1), s t := by
  induction n with
  | zero => rw [h0, Finset.sum_range_one]
  | succ n ih => rw [hs, ih, Finset.sum_range_succ _ (n + 1), add_assoc]

end Cert.NoObj

end
-- ==== Proof.KernelBlock.lean ====
/-
  What one grid point leaves in the accumulator. At the first point the body stores the zero word, reads it back and
  adds the point's block sum; at every later point it adds the block sum to what the point before left. The block sum
  of a [6,80,80,84] block of predictions and the [80,80] mask is the sum, over the block's 6 · 80 · 80 cells, of softplus of
  channel 4 times one minus the mask entry.
-/
import proofs.«166187_j23252952940853_1_alg».proof.Proof.Gen.KernelIdeal.Frame
import proofs.«166187_j23252952940853_1_alg».proof.Proof.NoObjSpec
import Idealize.ShloMosaic.Lib.Pipeline.Value
import Idealize.ShloMosaic.Lib.Tactic

noncomputable section

namespace Cert.KernelIdeal.BlockValue

open Cert.KernelIdeal Cert.KernelIdeal.Gen Idealize.ShloMosaic Idealize.ShloMosaic.TcCoe Idealize.SL.Sem Idealize.ShloMosaic.Tactic
open Idealize.ShloMosaic.ValueIdx Idealize.ShloMosaic.SumIndex

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point: the accumulator holding `xo` ends at the payload of the block, the mask and `xo`. -/
theorem out_B (c : Dev nD) (i : grid0.Coords) (a1 : Memref sig .tc .vmem S6x80x80x84 .f32) (h1 : a1.IsWhole)
    (a2 : Memref sig .tc .vmem S80x80 .f32) (h2 : a2.IsWhole) (a3 : Memref sig .tc .vmem S1x1 .f32) (h3 : a3.IsWhole)
    (hc : ¬cond0_0 i) (x0 : Vec F S6x80x80x84 .f32) (x1 : Vec F S80x80 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz2]
  simp only [View.readAt_eq_ld, h1.read_unread, h2.read_unread, h3.read_unread, View.ld_unit_zero (S := S6x80x80x84) hz4,
    View.ld_unit_zero (S := S80x80) hz2, View.ld_unit_zero (S := S1x1) hz2]

/-- The first point: the accumulator is reset to the zero word first, so it ends at the payload of the block, the mask
    and the zero block. -/
theorem out_A (c : Dev nD) (i : grid0.Coords) (a1 : Memref sig .tc .vmem S6x80x80x84 .f32) (h1 : a1.IsWhole)
    (a2 : Memref sig .tc .vmem S80x80 .f32) (h2 : a2.IsWhole) (a3 : Memref sig .tc .vmem S1x1 .f32) (h3 : a3.IsWhole)
    (hc : cond0_0 i) (x0 : Vec F S6x80x80x84 .f32) (x1 : Vec F S80x80 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S6x80x80x84) hz4,
    View.ld_unit_zero (S := S80x80) hz2]

/-- The payload at its one index, over the extended reals: the accumulator's entry plus the block sum. -/
theorem pay2_apply (x0 : Vec Ideal S6x80x80x84 .f32) (x1 : Vec Ideal S80x80 .f32) (acc : Vec Ideal S1x1 .f32) (y : S1x1.Idx) :
    k0_pay2 (F := Ideal) x0 x1 acc y
      = acc y + ∑ a : Fin 6, ∑ h : Fin 80, ∑ w : Fin 80,
          NoObj.softplus (x0 (ix4 a h w ⟨4, by decide⟩)) * (NoObj.one32 - x1 (ix2 h w)) := by
  unfold k0_pay2
  dsimp only
  refine (addf_apply _ _ y).trans (congrArg₂ (· + ·) (congrFun (shapeCast_self acc _) y) ?_)
  refine (broadcast_apply _ y).trans ?_
  refine (NoObj.extract_unit _ _ _).trans ?_
  refine (Ideal.multiReduction_add_total _ _ _ (fun b => by fin_cases b; rfl) _ _ _).trans ?_
  refine (sum_shapeCast _ _).trans ?_
  refine (sum_idx3 _).trans ?_
  refine Finset.sum_congr rfl fun a _ => Finset.sum_congr rfl fun h _ => Finset.sum_congr rfl fun w _ => ?_
  refine (mulf_apply _ _ _).trans (congrArg₂ (· * ·) ?_ ?_)
  · have e := NoObj.channel4_apply (shapeCast S6x80x80x84 x0 shapeCasts_S6x80x80x84_S6x80x80x84)
      slices_S6x80x80x84_o0_0_0_4_S6x80x80x1 shapeCasts_S6x80x80x1_S6x80x80 a h w
    exact (NoObj.softplus_block _ _).trans (congrArg NoObj.softplus (e.trans (congrFun (shapeCast_self x0 _) _)))
  · refine (NoObj.spread_apply _ _ _ a h w).trans ?_
    rw [shapeCast_self]
    rfl

end Cert.KernelIdeal.BlockValue

end
-- ==== Proof.KernelHost.lean ====
/-
  What the host lines before the region compute, as the region finds it. The two programs prepare the same quantities
  from the same arguments by the same operations: the box, class and object terms of the loss, the [6400] mask of object
  cells (scattered ones over zeros), and the prediction array re-laid as [48,80,80,84]. Here each is read off the
  program's own lines and named by the corresponding stage of the other program, so that nothing of them need be opened
  again: the mask enters the region re-laid as [80,80], and the count of cells that are not object cells is
  48 · (6400 - the sum of the [80,80] mask).
-/
import proofs.«166187_j23252952940853_1_alg».proof.Proof.Gen.KernelIdeal.Frame
import proofs.«166187_j23252952940853_1_alg».proof.Proof.Gen.ReferenceIdeal.Read
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The two arguments as launched on core `c`. -/
abbrev pred (c : Dev nD) : S16x3x80x80x84.Idx → F .f32 := m ((c.tc : Thread nD τ).loc main_arg0)
abbrev targets (c : Dev nD) : S64x5.Idx → F .f32 := m ((c.tc : Thread nD τ).loc main_arg1)

/-- The mask of object cells, flat: ones scattered at the targets' cells over zeros. -/
abbrev mask (c : Dev nD) : S6400.Idx → F .f32 := Cert.ReferenceIdeal.Read.val_main_v62 (F := F) (targets m c)

/-- The number of cells counted in the no-object mean, from the [80,80] mask. -/
abbrev count (c : Dev nD) : S_.Idx → F .f32 :=
  mulf (constant S_ .f32 0x42400000#32) (subf (constant S_ .f32 0x45C80000#32)
    (Host.reduceAdd (shapeCast S80x80 (mask m c) shapeCasts_S6400_S80x80) (constant S_ .f32 0x00000000#32) reducesTo_S80x80_S_d0_1 h_S_))

set_option maxRecDepth 8192 in
set_option maxHeartbeats 64000000 in
/-- The six values the rest of the program reads, at the region's entry. -/
theorem entry_values (c : Dev nD) :
    (V m c main_v64 : S48x80x80x84.Idx → F .f32) = shapeCast S48x80x80x84 (pred m c) shapeCasts_S16x3x80x80x84_S48x80x80x84
    ∧ (V m c main_v60 : S80x80.Idx → F .f32) = shapeCast S80x80 (mask m c) shapeCasts_S6400_S80x80
    ∧ (V m c main_v63 : S_.Idx → F .f32) = count m c
    ∧ (V m c main_v32 : S_.Idx → F .f32) = Cert.ReferenceIdeal.Read.val_main_v32 (F := F) (pred m c) (targets m c)
    ∧ (V m c main_v44 : S_.Idx → F .f32) = Cert.ReferenceIdeal.Read.val_main_v44 (F := F) (pred m c) (targets m c)
    ∧ (V m c main_v50 : S_.Idx → F .f32) = Cert.ReferenceIdeal.Read.val_main_v50 (F := F) (pred m c) (targets m c) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  exact ⟨rfl, rfl, rfl, rfl, rfl, rfl⟩

end Cert.KernelIdeal.HostValue

end
-- ==== Proof.KernelAcc.lean ====
/-
  The accumulator over the grid. Point t reads slabs 6t … 6t + 5 of the re-laid prediction array and, at every
  point, the whole [80,80] mask; its block sum is therefore the sum of the cells of block t. The accumulator is reset at
  the first point and carried from point to point, so after point n it holds the zero word plus the sum of blocks
  0 … n (induction on the point), and the one write-back, after the last point, puts the zero word plus the whole sum
  into the [1,1] result array.
-/
import proofs.«166187_j23252952940853_1_alg».proof.Proof.KernelBlock
import proofs.«166187_j23252952940853_1_alg».proof.Proof.KernelHost
import Idealize.ShloMosaic.Lib.Pipeline.Value

noncomputable section

namespace Cert.KernelIdeal.Accumulate

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.SumIndex
open Cert.KernelIdeal.BlockValue Cert.KernelIdeal.HostValue

variable (m : (ℓ : Loc nD τ sig) → Buf (Elt Ideal) ℓ)

/-! ## The blocks the body reads -/

/-- Window 0 moves along the slab axis only; window 1 never moves. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = 0 ∧ win0_1.index t 1 = 0 :=
  (by decide +kernel : ∀ t : Fin grid0.N, win0_1.index t 0 = 0 ∧ win0_1.index t 1 = 0)

/-- Entry (a, h, w, ch) of the prediction block at point t is entry (6t + a, h, w, ch) of the re-laid array. -/
theorem block0_apply (c : Dev nD) (t : Fin cfg0.N) (ht : t.val < 8) (a : Fin 6) (h w : Fin 80) (ch : Fin 84) :
    (iblk m c 0 t : Vec Ideal S6x80x80x84 .f32) (ix4 a h w ch)
      = (V m c main_v64 : S48x80x80x84.Idx → Ideal .f32) (ix4 ⟨t.val * 6 + a.val, by have := a.isLt; omega⟩ h w ch) := by
  obtain ⟨h0, h1, h2, h3⟩ := index0 t
  unfold iblk
  rw [View.read_apply]
  show V m c main_v64 _ = V m c main_v64 _
  refine congrArg (V m c main_v64) (funext fun d => Fin.ext ?_)
  match d with
  | ⟨0, _⟩ => show win0_0.index t 0 * 6 + 1 * a.val = t.val * 6 + a.val; rw [h0]; omega
  | ⟨1, _⟩ => show win0_0.index t 1 * 80 + 1 * h.val = h.val; rw [h1]; omega
  | ⟨2, _⟩ => show win0_0.index t 2 * 80 + 1 * w.val = w.val; rw [h2]; omega
  | ⟨3, _⟩ => show win0_0.index t 3 * 84 + 1 * ch.val = ch.val; rw [h3]; omega

/-- The mask block at every point is the whole [80,80] mask. -/
theorem block1_apply (c : Dev nD) (t : Fin cfg0.N) (h w : Fin 80) :
    (iblk m c 1 t : Vec Ideal S80x80 .f32) (ix2 h w) = (V m c main_v60 : S80x80.Idx → Ideal .f32) (ix2 h w) := by
  obtain ⟨h0, h1⟩ := index1 t
  unfold iblk
  rw [View.read_apply]
  show V m c main_v60 _ = V m c main_v60 _
  refine congrArg (V m c main_v60) (funext fun d => Fin.ext ?_)
  match d with
  | ⟨0, _⟩ => show win0_1.index t 0 * 80 + 1 * h.val = h.val; rw [h0]; omega
  | ⟨1, _⟩ => show win0_1.index t 1 * 80 + 1 * w.val = w.val; rw [h1]; omega

/-- A cell of the block at point t, read back to the arguments: slab 6t + a of the 48 is (its quotient, its
    remainder by 3) of the [16,3] leading axes, and (h, w) is the flattened cell 80 h + w. -/
theorem block_cell (c : Dev nD) (t : Fin cfg0.N) (ht : t.val < 8) (a : Fin 6) (h w : Fin 80) :
    NoObj.softplus ((iblk m c 0 t : Vec Ideal S6x80x80x84 .f32) (ix4 a h w ⟨4, by decide⟩))
        * (NoObj.one32 - (iblk m c 1 t : Vec Ideal S80x80 .f32) (ix2 h w))
      = NoObj.cell (pred m c) (mask m c) (blockPos 8 6 rfl ⟨t.val, ht⟩ a) h w := by
  have ha := a.isLt
  have hh := h.isLt
  have hw := w.isLt
  have e0 : (iblk m c 0 t : Vec Ideal S6x80x80x84 .f32) (ix4 a h w ⟨4, by decide⟩)
      = pred m c (ix5 ⟨(t.val * 6 + a.val) / 3, by omega⟩ ⟨(t.val * 6 + a.val) % 3, by omega⟩ h w ⟨4, by decide⟩) :=
    (block0_apply m c t ht a h w ⟨4, by decide⟩).trans ((congrFun (entry_values m c).1 _).trans
      (shapeCast_apply _ _ _ _ (by
        rw [Shape.rowMajor_val_five, Shape.rowMajor_val_four]
        show (((((t.val * 6 + a.val) / 3) * 3 + (t.val * 6 + a.val) % 3) * 80 + h.val) * 80 + w.val) * 84 + 4
          = (((t.val * 6 + a.val) * 80 + h.val) * 80 + w.val) * 84 + 4
        omega)))
  have e1 : (iblk m c 1 t : Vec Ideal S80x80 .f32) (ix2 h w) = mask m c (ix1 ⟨h.val * 80 + w.val, by omega⟩) :=
    (block1_apply m c t h w).trans ((congrFun (entry_values m c).2.1 _).trans
      (shapeCast_apply _ _ _ _ (by
        rw [Shape.rowMajor_val_one, Shape.rowMajor_val_two]
        show h.val * 80 + w.val = h.val * 80 + w.val
        rfl)))
  unfold NoObj.cell
  exact congrArg₂ (· * ·) (congrArg NoObj.softplus e0) (congrArg (NoObj.one32 - ·) e1)

/-! ## The running sum -/

/-- The sum of the cells of block t (zero past the grid). -/
def blockTerm (c : Dev nD) (t : Nat) : Ideal .f32 :=
  if ht : t < 8 then ∑ a : Fin 6, ∑ h : Fin 80, ∑ w : Fin 80, NoObj.cell (pred m c) (mask m c) (blockPos 8 6 rfl ⟨t, ht⟩ a) h w
  else 0

/-- The payload at point t adds block t's sum to the accumulator's entry. -/
theorem payload_at (c : Dev nD) (t : Fin cfg0.N) (acc : Vec Ideal S1x1 .f32) (y : S1x1.Idx) :
    k0_pay2 (F := Ideal) (iblk m c 0 t) (iblk m c 1 t) acc y = acc y + blockTerm m c t.val := by
  have ht : t.val < 8 := lt_of_lt_of_eq t.isLt N_0
  refine (pay2_apply (iblk m c 0 t) (iblk m c 1 t) acc y).trans (congrArg (acc y + ·) ?_)
  unfold blockTerm
  rw [dif_pos ht]
  exact Finset.sum_congr rfl fun a _ => Finset.sum_congr rfl fun h _ => Finset.sum_congr rfl fun w _ => block_cell m c t ht a h w

/-- At the first point the accumulator's entry ends at the zero word plus that block's sum. -/
theorem acc_first (c : Dev nD) (t : Fin cfg0.N) (h0 : t.val % 8 = 0) (y : S1x1.Idx) :
    outsAt0 m c t.val t.isLt y = NoObj.zero32 + blockTerm m c t.val := by
  rw [outsAt0_A m c t h0,
    out_A (F := Ideal) c (grid0.coords t) (ms0_0 t) (hs0_0 t) (ms0_1 t) (hs0_1 t) (ms0_2 t) (hs0_2 t) ((hcond0_0 t).mpr h0)
      (iblk m c 0 t) (iblk m c 1 t)]
  exact payload_at m c t (k0_pay1 (F := Ideal)) y

/-- At a later point it ends at what the point before left plus that block's sum. -/
theorem acc_next (c : Dev nD) (t : Fin cfg0.N) (h0 : ¬t.val % 8 = 0) (y : S1x1.Idx) :
    outsAt0 m c t.val t.isLt y
      = outsAt0 m c (t.val - 1) (Nat.lt_of_le_of_lt (Nat.sub_le _ _) t.isLt) y + blockTerm m c t.val := by
  rw [outsAt0_B m c t h0,
    out_B (F := Ideal) c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)),
    payload_at m c t (outsAt0 m c (t.val - 1) (Nat.lt_of_le_of_lt (Nat.sub_le _ _) t.isLt)) y]

/-- After point n the accumulator holds the zero word plus the sums of blocks 0 … n. -/
theorem outsAt_eq (c : Dev nD) (y : S1x1.Idx) : ∀ (n : Nat) (h : n < cfg0.N),
    outsAt0 m c n h y = NoObj.zero32 + ∑ t ∈ Finset.range (n + 1), blockTerm m c t
  | 0, h => by
    rw [Finset.sum_range_one]
    exact acc_first m c ⟨0, h⟩ rfl y
  | n + 1, h => by
    have hN : cfg0.N = 8 := N_0
    have hB : ¬(⟨n + 1, h⟩ : Fin cfg0.N).val % 8 = 0 := by dsimp only; omega
    refine (acc_next m c ⟨n + 1, h⟩ hB y).trans ?_
    show outsAt0 m c n _ y + blockTerm m c (n + 1) = _
    rw [outsAt_eq c y n, Finset.sum_range_succ _ (n + 1), add_assoc]

/-! ## The result array -/

/-- What the accumulator holds after the last point, as contents of the [1,1] result array. -/
abbrev result (c : Dev nD) : Buf (Elt Ideal) ((c : Thread nD τ).loc main_v65) :=
  outsAt0 m c 7 (by rw [show cfg0.N = 8 from N_0]; decide)

/-- The one write-back, after point 7, writes it: the block is the whole array. -/
theorem flushed_eq (c : Dev nD) (t : Fin cfg0.N) (hf : (cfg0.win 2).flush t = true) :
    (dats m 0 c).flushed 2 t = ((cfg0.win 2).blk t).view.read (Elt Ideal) (result m c) := by
  have hN : cfg0.N = 8 := N_0
  have h7 : t.val = 7 := by have := (flush0_2 t).mp hf; have := t.isLt; omega
  obtain rfl : t = t0_7 := Fin.ext h7
  show (cfg0.win 2).cut (grid0.coords t0_7) ((dats m 0 c).after 2 t0_7) = _
  rw [after0_2]
  have hz' : (fun a => win0_2.index t0_7 a * main_v65.ty.shape.size a) = fun _ => 0 := funext fun a => by fin_cases a <;> decide
  exact (Memref.read_access_unit_zero (Elt Ideal) main_v65 hz' (fun a => by rw [congrFun hz' a]; simp) (result m c)).symm

/-- So the result array ends holding it. -/
theorem final_eq (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v65).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- Its one entry is the zero word plus the whole sum over the cells. -/
theorem result_apply (c : Dev nD) (y : S1x1.Idx) :
    result m c y = NoObj.zero32 + NoObj.total (pred m c) (mask m c) := by
  refine (outsAt_eq m c y 7 _).trans (congrArg (NoObj.zero32 + ·) ?_)
  rw [NoObj.total_eq_blocks, Finset.sum_range]
  refine Finset.sum_congr rfl fun t _ => ?_
  unfold blockTerm
  rw [dif_pos t.isLt]

end Cert.KernelIdeal.Accumulate

end
-- ==== Proof.KernelTail.lean ====
/-
  The host lines after the region: the [1,1] result array is re-laid as a scalar, divided by the count of cells, halved,
  and added to the sum of the box term, the class term and the object term. Read off the frame run's post, the
  program's result is that combination of the region's result array and of values the lines before the region left.
-/
import proofs.«166187_j23252952940853_1_alg».proof.Proof.Gen.KernelIdeal.Frame
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The total loss from its four terms: box + class + 1 · object + ½ · (no-object sum / count). -/
def combine (box cls obj : S_.Idx → F .f32) (s : S1x1.Idx → F .f32) (n : S_.Idx → F .f32) : S_.Idx → F .f32 :=
  addf (addf (addf box cls) (mulf (constant S_ .f32 0x3F800000#32) obj))
    (mulf (constant S_ .f32 0x3F000000#32) (Host.divf (shapeCast S_ s shapeCasts_S1x1_S_) n))

/-- The program's result after the last lines. -/
theorem tail_eq (c : Dev nD) :
    (Pipeline.afterTail₀ cfgs (dats m) 0 (V0 m) [hostOps1] c main_v72 : S_.Idx → F .f32)
      = combine (V m c main_v32) (V m c main_v44) (V m c main_v50) ((dats m 0 c).arrAt 2 cfg0.N) (V m c main_v63) := by
  unfold Pipeline.afterTail₀
  show StableHlo.after hostOps1 _ (Proc.devRef .tc main_v72) = _
  after_results
  have e65 : Pipeline.withArrays (cfgs 0).spec c (V0 m c) (fun w => (dats m 0 c).arrAt w (cfgs 0).N) (Proc.devRef .tc main_v65)
      = (dats m 0 c).arrAt 2 cfg0.N := Pipeline.withArrays_arr spec0 launch0.win.arr_inj c (V0 m c) _ 2
  rw [e65,
    Pipeline.withArrays_of_ne _ c (V0 m c) _ main_v32 (by exact (by decide : ∀ w, Pipeline.arrRef spec0 w ≠ main_v32)),
    Pipeline.withArrays_of_ne _ c (V0 m c) _ main_v44 (by exact (by decide : ∀ w, Pipeline.arrRef spec0 w ≠ main_v44)),
    Pipeline.withArrays_of_ne _ c (V0 m c) _ main_v50 (by exact (by decide : ∀ w, Pipeline.arrRef spec0 w ≠ main_v50)),
    Pipeline.withArrays_of_ne _ c (V0 m c) _ main_v63 (by exact (by decide : ∀ w, Pipeline.arrRef spec0 w ≠ main_v63))]
  rfl

end Cert.KernelIdeal.Tail

end
-- ==== Proof.RefSum.lean ====
/-
  The reference's no-object sum. It takes softplus of channel 4 of the prediction array re-laid as [16,3,6400,84], multiplies
  by one minus the flat mask spread over the 16 · 3 slabs, and sums everything: entry (b, a, p) is the contribution of
  slab 3b + a at the cell with flattened position p, so the sum is the zero word plus the whole sum over the cells.
-/
import proofs.«166187_j23252952940853_1_alg».proof.Proof.Gen.ReferenceIdeal.Read
import proofs.«166187_j23252952940853_1_alg».proof.Proof.NoObjSpec

noncomputable section

namespace Cert.ReferenceIdeal.RefValue

open Cert.ReferenceIdeal Cert.ReferenceIdeal.Read Idealize.ShloMosaic
open Idealize.ShloMosaic.ValueIdx Idealize.ShloMosaic.SumIndex

variable (x0 : S16x3x80x80x84.Idx → Ideal .f32) (x1 : S64x5.Idx → Ideal .f32)

/-- The host's softplus of the channel-4 array, at an index, is softplus of its entry there. -/
theorem softplus_apply (j : S16x3x6400.Idx) :
    val_main_v53 (F := Ideal) x0 j = NoObj.softplus (val_main_v52 (F := Ideal) x0 j) := by
  simp only [val_main_v53_apply, val_main_call5_v4_apply, val_main_call5_v3_apply, val_main_call5_v2_apply,
    val_main_call5_v6_apply, val_main_call5_v5_apply, val_main_call5_v11_apply, val_main_call5_v1_apply,
    val_main_call5_v0_apply, val_main_call5_v10_apply, val_main_call5_v9_apply, val_main_call5_v8_apply,
    val_main_call5_v7_apply, val_main_call5_cst_apply]
  rfl

/-- Channel 4 at (b, a, p = 80 h + w) is the prediction at slab (b, a), cell (h, w), channel 4. -/
theorem channel4_apply (b : Fin 16) (a : Fin 3) (h w : Fin 80) :
    val_main_v52 (F := Ideal) x0 (ix3 b a (blockPos 80 80 rfl h w))
      = x0 (ix5 ⟨(b.val * 3 + a.val) / 3, by have := b.isLt; have := a.isLt; omega⟩ ⟨(b.val * 3 + a.val) % 3, by omega⟩ h w ⟨4, by decide⟩) := by
  have hb := b.isLt
  have ha := a.isLt
  have hh := h.isLt
  have hw := w.isLt
  rw [val_main_v52_apply, val_main_v51_apply, val_main_v17_apply]
  refine congrArg x0 (funext fun d => Fin.ext ?_)
  match d with
  | ⟨0, _⟩ =>
    show (((((((b.val * 3 + a.val) * 6400 + (h.val * 80 + w.val)) / 19200) * 3 + ((b.val * 3 + a.val) * 6400 + (h.val * 80 + w.val)) / 6400 % 3) * 6400 + ((b.val * 3 + a.val) * 6400 + (h.val * 80 + w.val)) / 1 % 6400) * 84 + (4 + 0)) / 1612800) = (b.val * 3 + a.val) / 3
    omega
  | ⟨1, _⟩ =>
    show (((((((b.val * 3 + a.val) * 6400 + (h.val * 80 + w.val)) / 19200) * 3 + ((b.val * 3 + a.val) * 6400 + (h.val * 80 + w.val)) / 6400 % 3) * 6400 + ((b.val * 3 + a.val) * 6400 + (h.val * 80 + w.val)) / 1 % 6400) * 84 + (4 + 0)) / 537600 % 3) = (b.val * 3 + a.val) % 3
    omega
  | ⟨2, _⟩ =>
    show (((((((b.val * 3 + a.val) * 6400 + (h.val * 80 + w.val)) / 19200) * 3 + ((b.val * 3 + a.val) * 6400 + (h.val * 80 + w.val)) / 6400 % 3) * 6400 + ((b.val * 3 + a.val) * 6400 + (h.val * 80 + w.val)) / 1 % 6400) * 84 + (4 + 0)) / 6720 % 80) = h.val
    omega
  | ⟨3, _⟩ =>
    show (((((((b.val * 3 + a.val) * 6400 + (h.val * 80 + w.val)) / 19200) * 3 + ((b.val * 3 + a.val) * 6400 + (h.val * 80 + w.val)) / 6400 % 3) * 6400 + ((b.val * 3 + a.val) * 6400 + (h.val * 80 + w.val)) / 1 % 6400) * 84 + (4 + 0)) / 84 % 80) = w.val
    omega
  | ⟨4, _⟩ =>
    show (((((((b.val * 3 + a.val) * 6400 + (h.val * 80 + w.val)) / 19200) * 3 + ((b.val * 3 + a.val) * 6400 + (h.val * 80 + w.val)) / 6400 % 3) * 6400 + ((b.val * 3 + a.val) * 6400 + (h.val * 80 + w.val)) / 1 % 6400) * 84 + (4 + 0)) % 84) = 4
    omega

/-- One minus the mask, spread over the slabs, at (b, a, p) is one minus the mask at p. -/
theorem spread_apply (b : Fin 16) (a : Fin 3) (p : Fin 6400) :
    val_main_v69 (F := Ideal) x1 (ix3 b a p) = NoObj.one32 - val_main_v62 (F := Ideal) x1 (ix1 p) := by
  rw [val_main_v69_apply, val_main_v68_apply, val_main_v67_apply, val_main_v66_apply, val_main_cst_20_apply]
  have e : idx_main_v68 (idx_main_v69 (ix3 b a p)) = ix1 p := funext fun d => match d with | ⟨0, _⟩ => rfl
  rw [e]
  rfl

/-- The reference's no-object sum is the zero word plus the whole sum over the cells. -/
theorem sum_eq (i : S_.Idx) :
    val_main_v71 (F := Ideal) x0 x1 i = NoObj.zero32 + NoObj.total x0 (val_main_v62 (F := Ideal) x1) := by
  rw [val_main_v71_apply]
  refine congrArg₂ (· + ·) rfl ?_
  refine ((sum_idx3 _).trans (NoObj.total_eq_flat x0 _ (fun b a p => val_main_v70 (F := Ideal) x0 x1 (ix3 b a p)) ?_).symm)
  intro b a h w
  rw [val_main_v70_apply, softplus_apply, channel4_apply, spread_apply]
  rfl

end Cert.ReferenceIdeal.RefValue

end
-- ==== Proof.Bridge.lean ====
/-
  The two results are one number. Both programs end with box + class + object + ½ · (no-object sum / count), built from
  the same box, class and object terms. The no-object sums are two groupings of one sum over the cells, each started at
  the zero word; the counts are 48 · (6400 - the sum of the mask), the mask summed once as [80,80] and once flat, and a
  reshape does not change a sum.
-/
import proofs.«166187_j23252952940853_1_alg».proof.Proof.KernelAcc
import proofs.«166187_j23252952940853_1_alg».proof.Proof.KernelTail
import proofs.«166187_j23252952940853_1_alg».proof.Proof.RefSum

noncomputable section

namespace Cert.KernelIdeal.Bridge

open Cert.KernelIdeal Cert.KernelIdeal.Gen Idealize.ShloMosaic Idealize.ShloMosaic.TcCoe Idealize.SL.Sem
open Idealize.ShloMosaic.SumIndex
open Cert.KernelIdeal.HostValue Cert.KernelIdeal.Accumulate Cert.KernelIdeal.Tail

variable (m : (ℓ : Loc nD τ sig) → Buf (Elt Ideal) ℓ)

/-- The sum of the mask re-laid as [80,80] is the sum of the flat mask, each from the zero word. -/
theorem mask_sum_eq (c : Dev nD) :
    Host.reduceAdd (F := Ideal) (shapeCast S80x80 (mask m c) shapeCasts_S6400_S80x80) (constant S_ .f32 0x00000000#32)
        reducesTo_S80x80_S_d0_1 h_S_
      = Cert.ReferenceIdeal.Read.val_main_v63 (F := Ideal) (targets m c) := by
  funext i
  rw [Cert.ReferenceIdeal.Read.val_main_v63_apply]
  simp only [Host.reduceAdd, Ideal.hostReduceAdd_def]
  exact (Ideal.hostReduceAdd_total reducesTo_S80x80_S_d0_1 (fun b => b.elim0) _ _ i).trans
    (congrArg₂ (· + ·) rfl (sum_shapeCast _ _))

/-- So the two counts agree. -/
theorem count_eq (c : Dev nD) : count m c = Cert.ReferenceIdeal.Read.val_main_v65 (F := Ideal) (targets m c) :=
  congrArg (fun v : S_.Idx → Ideal .f32 => mulf (constant S_ .f32 0x42400000#32) (subf (constant S_ .f32 0x45C80000#32) v))
    (mask_sum_eq m c)

/-- The region's result array, re-laid as a scalar, is the reference's no-object sum. -/
theorem sum_eq (c : Dev nD) :
    shapeCast S_ (result m c) shapeCasts_S1x1_S_
      = Cert.ReferenceIdeal.Read.val_main_v71 (F := Ideal) (pred m c) (targets m c) := by
  funext i
  refine Eq.trans ?_ (Cert.ReferenceIdeal.RefValue.sum_eq (pred m c) (targets m c) i).symm
  exact result_apply m c _

/-- The program's result is the reference's last stage of the same arguments. -/
theorem result_eq (c : Dev nD) :
    combine (F := Ideal) (V m c main_v32) (V m c main_v44) (V m c main_v50) ((dats m 0 c).arrAt 2 cfg0.N) (V m c main_v63)
      = Cert.ReferenceIdeal.Read.val_main_v77 (F := Ideal) (pred m c) (targets m c) := by
  obtain ⟨-, -, e63, e32, e44, e50⟩ := entry_values m c
  refine (congr (congr (congr (congr (congrArg (combine (F := Ideal)) e32) e44) e50) (final_eq m c)) (e63.trans (count_eq m c))).trans ?_
  unfold combine
  rw [sum_eq]
  rfl

end Cert.KernelIdeal.Bridge

end
-- ==== Proof.lean ====
/-
  The five claims. Each program's frame is its generated run. The kernel is its own idealization: nothing was
  rewritten. The value claim: over the extended reals the kernel's no-object term — softplus of channel 4 times one
  minus the object mask, accumulated over 8 grid points of 6 slabs — and the reference's — the same products summed at
  once over 16 · 3 slabs of 6400 cells — are one finite sum regrouped, and everything around them (the box, class and
  object terms, the mask, the count of cells, the final combination) is computed by the same operations from the same
  arguments in both programs.
-/
import proofs.«166187_j23252952940853_1_alg».proof.Defs
import proofs.«166187_j23252952940853_1_alg».proof.Proof.Gen.Kernel
import proofs.«166187_j23252952940853_1_alg».proof.Proof.Gen.Kernel.Skeleton
import proofs.«166187_j23252952940853_1_alg».proof.Proof.Gen.Kernel.Launch
import proofs.«166187_j23252952940853_1_alg».proof.Proof.Gen.Kernel.Points
import proofs.«166187_j23252952940853_1_alg».proof.Proof.Gen.Kernel.Frame
import proofs.«166187_j23252952940853_1_alg».proof.Proof.Gen.KernelIdeal
import proofs.«166187_j23252952940853_1_alg».proof.Proof.Gen.KernelIdeal.Skeleton
import proofs.«166187_j23252952940853_1_alg».proof.Proof.Gen.KernelIdeal.Launch
import proofs.«166187_j23252952940853_1_alg».proof.Proof.Gen.KernelIdeal.Points
import proofs.«166187_j23252952940853_1_alg».proof.Proof.Gen.KernelIdeal.Frame
import proofs.«166187_j23252952940853_1_alg».proof.Proof.Gen.ReferenceIdeal
import proofs.«166187_j23252952940853_1_alg».proof.Proof.Gen.Pre_finite_inputs
import proofs.«166187_j23252952940853_1_alg».proof.Proof.Gen.ReferenceIdeal.Run
import proofs.«166187_j23252952940853_1_alg».proof.Proof.Gen.ReferenceIdeal.Read
import proofs.«166187_j23252952940853_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the kernel's arguments: the kernel's by its frame
    run, the lines after the region and the bridge; the reference's by its run, from arguments that agree. -/
theorem algebraic : Cert.algebraic_KernelIdeal_ReferenceIdeal := by
  intro m ρ m' ρ' _ hagree
  refine ⟨fun c => Cert.ReferenceIdeal.Read.val_main_v77 (F := Ideal)
    (Cert.KernelIdeal.HostValue.pred m c) (Cert.KernelIdeal.HostValue.targets m c), ?_, ?_⟩
  · refine (θ_run Cert.KernelIdeal.defs _ _).mono (fun r h c => ⟨?_, ?_, ?_⟩) (Cert.KernelIdeal.Gen.run_main m ρ)
    · exact ((h c).2 Cert.KernelIdeal.main_v72 (Pipeline.mem_restRefs_of Cert.KernelIdeal.main_v72 (by decide) (by decide))).trans
        ((Cert.KernelIdeal.Tail.tail_eq m c).trans (Cert.KernelIdeal.Bridge.result_eq m c))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v77_eq m' c)).trans ?_
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
